-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2x2048x32000 : Shape := ⟨3, ![2, 2048, 32000]⟩
abbrev S32000x2048 : Shape := ⟨2, ![32000, 2048]⟩
abbrev S1 : Shape := ⟨1, ![1]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S2x2048x2048 .f32) (main_arg1 : IVec S2x2048x32000 1) (main_arg2 : FVec F S32000x2048 .f32) (main_arg3 : FVec F S32000x2048 .f32) (main_arg4 : FVec F S1 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S32000x2048 .f32 := Host.absf main_arg2
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : FVec F S32000x2048 .f32 := Host.absf main_arg3
  let main_cst_2 : FVec F S_ .f32 := constant S_ .f32 0x7F800000#32
  let main_v10 : FVec F S32000x2048 .f32 := broadcastInDim S32000x2048 ![] bcast_S_S32000x2048 main_cst_2
  let main_v11 : IVec S32000x2048 1 := cmpf .olt main_v9 main_v10
  let main_c_3 : IVec S_ 1 := constantI S_ 1 1#1
  let main_v12 : IVec S_ 1 := (fun x v => Host.reduce IntOp.andi x v reducesTo_S32000x2048_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S2x2048x2048 : Shape := ⟨3, ![2, 2048, 2048]⟩
abbrev S2x2048x32000 : Shape := ⟨3, ![2, 2048, 32000]⟩
abbrev S32000x2048 : Shape := ⟨2, ![32000, 2048]⟩
abbrev S1 : Shape := ⟨1, ![1]⟩
abbrev S1x512x2048 : Shape := ⟨3, ![1, 512, 2048]⟩
abbrev S1x512x128 : Shape := ⟨3, ![1, 512, 128]⟩
abbrev S128x2048 : Shape := ⟨2, ![128, 2048]⟩
abbrev S512x2048 : Shape := ⟨2, ![512, 2048]⟩
abbrev S2048x128 : Shape := ⟨2, ![2048, 128]⟩
abbrev S512x128 : Shape := ⟨2, ![512, 128]⟩

abbrev nBuf : Space → Nat
  | .hbm => 7
  | .vmem => 11
  | .smem => 0
  | _ => 0

abbrev bufTy : (tb : Table) → Fin (tcTables nBuf tb) → BufTy
  | .hbm, ⟨0, _⟩ => ⟨S2x2048x2048, .f32⟩
  | .hbm, ⟨1, _⟩ => ⟨S2x2048x32000, .i1⟩
  | .hbm, ⟨2, _⟩ => ⟨S32000x2048, .f32⟩
  | .hbm, ⟨3, _⟩ => ⟨S32000x2048, .f32⟩
  | .hbm, ⟨4, _⟩ => ⟨S1, .f32⟩
  | .hbm, ⟨5, _⟩ => ⟨S2x2048x32000, .i32⟩
  | .hbm, ⟨6, _⟩ => ⟨S2x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x128, .i32⟩
  | .local _ .vmem, ⟨3, _⟩ => ⟨S1x512x128, .i32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1, .f32⟩
  | .local _ .vmem, ⟨9, _⟩ => ⟨S1x512x2048, .f32⟩
  | .local _ .vmem, ⟨10, _⟩ => ⟨S1x512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 4, 250], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  natLt_1_32 : 1 < 32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S128x2048_S128x2048_0_0 : ∀ a, (![0, 0] : Fin 2 → Nat) a + S128x2048.size a ≤ S128x2048.size a
  h_S128x2048 : 0 < S128x2048.numel
  bitsLt_bf16_f32 : FTy.bits .bf16 < FTy.bits .f32
  transposes_S128x2048_p1_0_S2048x128 : S128x2048.Transposes [1, 0] S2048x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1_S1_0 : ∀ a, (![0] : Fin 1 → Nat) a + S1.size a ≤ S1.size a
  h_S1 : 0 < S1.numel
  inpos_S1_p0 : ∀ a, (![0] : Fin 1 → Nat) a < S1.size a
  dot_S512x2048_S2048x128_S512x128_1_0_0_1_n_n_wf : DotDims.WF S512x2048 S2048x128 S512x128 [1] [0] [0] [1] [] []
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S2x2048x2048.size a
  hwx0_0 : ∀ i : grid0.Coords, EltTy.bits .f32 = 32 ∨ (Rect.block (s := S2x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S2x2048x32000.size a
  hwx0_1 : ∀ i : grid0.Coords, EltTy.bits .i32 = 32 ∨ (Rect.block (s := S2x2048x32000) S1x512x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S32000x2048.size a
  hwx0_2 : ∀ i : grid0.Coords, EltTy.bits .f32 = 32 ∨ (Rect.block (s := S32000x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S32000x2048.size a
  hwx0_3 : ∀ i : grid0.Coords, EltTy.bits .f32 = 32 ∨ (Rect.block (s := S32000x2048) S128x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S2x2048x2048.size a
  hwx0_5 : ∀ i : grid0.Coords, EltTy.bits .f32 = 32 ∨ (Rect.block (s := S2x2048x2048) S1x512x2048.size (cc0_transform_5 i) (hinb0_5 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2048x2048 : Shape := ⟨3, ![2, 2048, 2048]⟩
abbrev S2x2048x32000 : Shape := ⟨3, ![2, 2048, 32000]⟩
abbrev S32000x2048 : Shape := ⟨2, ![32000, 2048]⟩
abbrev S1 : Shape := ⟨1, ![1]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x32000, .i1⟩
  | .hbm, ⟨2, _⟩ => ⟨S32000x2048, .f32⟩
  | .hbm, ⟨3, _⟩ => ⟨S32000x2048, .f32⟩
  | .hbm, ⟨4, _⟩ => ⟨S1, .f32⟩
  | .hbm, ⟨5, _⟩ => ⟨S2x2048x32000, .f32⟩
  | .hbm, ⟨6, _⟩ => ⟨S_, .f32⟩
  | .hbm, ⟨7, _⟩ => ⟨S_, .f32⟩
  | .hbm, ⟨8, _⟩ => ⟨S2x2048x32000, .f32⟩
  | .hbm, ⟨9, _⟩ => ⟨S2x2048x32000, .f32⟩
  | .hbm, ⟨10, _⟩ => ⟨S2x2048x32000, .f32⟩
  | .hbm, ⟨11, _⟩ => ⟨S2x2048x32000, .f32⟩
  | .hbm, ⟨12, _⟩ => ⟨S2x2048x2048, .f32⟩
  | .hbm, ⟨13, _⟩ => ⟨S_, .f32⟩
  | .hbm, ⟨14, _⟩ => ⟨S2x2048x2048, .f32⟩
  | .hbm, ⟨15, _⟩ => ⟨S2x2048x2048, .f32⟩
  | .hbm, ⟨16, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  bcast_S_S2x2048x32000 : S_.BroadcastsInDim S2x2048x32000 (![] : Fin 0 → Fin S2x2048x32000.rank)
  shapeCasts_S1_S_ : S1.ShapeCasts S_
  bcast_S_S2x2048x2048 : S_.BroadcastsInDim S2x2048x2048 (![] : Fin 0 → Fin S2x2048x2048.rank)
  dot_S2x2048x2048_S32000x2048_S2x2048x32000_2_1_01_0_n_n_wf : DotDims.WF S2x2048x2048 S32000x2048 S2x2048x32000 [2] [1] [0, 1] [0] [] []
  dot_S2x2048x32000_S32000x2048_S2x2048x2048_2_0_01_1_n_n_wf : DotDims.WF S2x2048x32000 S32000x2048 S2x2048x2048 [2] [0] [0, 1] [1] [] []

variable [Facts₀]

def dot_S2x2048x2048_S32000x2048_S2x2048x32000_2_1_01_0_n_n : DotDims S2x2048x2048 S32000x2048 S2x2048x32000 where
  lhsContracting := [2]
  rhsContracting := [1]
  lhsNonContracting := [0, 1]
  rhsNonContracting := [0]
  lhsBatch := []
  rhsBatch := []
  wf := dot_S2x2048x2048_S32000x2048_S2x2048x32000_2_1_01_0_n_n_wf
def dot_S2x2048x32000_S32000x2048_S2x2048x2048_2_0_01_1_n_n : DotDims S2x2048x32000 S32000x2048 S2x2048x2048 where
  lhsContracting := [2]
  rhsContracting := [0]
  lhsNonContracting := [0, 1]
  rhsNonContracting := [1]
  lhsBatch := []
  rhsBatch := []
  wf := dot_S2x2048x32000_S32000x2048_S2x2048x2048_2_0_01_1_n_n_wf

class Facts : Prop extends Facts₀ where

variable [Facts]
-- ==== Proof.Spec.lean ====
/-
  The function both programs compute, index by index, over literal shapes.

  For hidden states `x0 : [2, 2048, 2048]`, a mask `x1 : [2, 2048, 32000]` of bits, two weight matrices
  `x2, x3 : [32000, 2048]` and a strength `x4 : [1]`, the entry `(b, s, c)` of the result is

      (Σ_{v < 32000} ((Σ_{h < 2048} x0[b,s,h] · x2[v,h]) · scale(x1[b,s,v])) · x3[v,c]) · x4[0] + x0[b,s,c]

  on the extended reals, where `scale` is one of two fixed constants, chosen by the mask bit.  The reference sums over
  `v` at once; the kernel sums 250 blocks of 128 consecutive `v` one after the other into an accumulator that
  starts at zero.  The two groupings agree because addition of extended reals is commutative and associative with
  neutral element zero (`sum_blocks`): no finiteness of the inputs is used.
-/
import Idealize.ShloMosaic.PureOps.Ideal
import Idealize.ShloMosaic.Lib.ValueIdx

noncomputable section

namespace Cert.Spec

open Idealize.ShloMosaic Idealize.ShloMosaic.ValueIdx

/-- The factor a mask bit selects: the constant 1 where the bit is set, the other constant (about 1/10000) where not. -/
def scale (b : BitVec 1) : EReal :=
  Scalar.select b (Ideal.ofBits .f32 0x3F800000#32) (Ideal.ofBits .f32 0x38D1B717#32)

/-- What vocabulary entry `v` contributes to the result's entry `(b, s, c)` before the final scaling: the projection of
    row `(b, s)` on `x2`'s row `v`, scaled by the mask's factor, times `x3[v, c]`. -/
def contrib (x0 : (⟨3, ![2, 2048, 2048]⟩ : Shape).Idx → EReal) (x1 : (⟨3, ![2, 2048, 32000]⟩ : Shape).Idx → BitVec 1)
    (x2 x3 : (⟨2, ![32000, 2048]⟩ : Shape).Idx → EReal) (b : Fin 2) (s : Fin 2048) (c : Fin 2048) (v : Fin 32000) : EReal :=
  ((∑ h : Fin 2048, x0 (ix3 b s h) * x2 (ix2 v h)) * scale (x1 (ix3 b s v))) * x3 (ix2 v c)

/-- The result's entry `(b, s, c)`. -/
def result (x0 : (⟨3, ![2, 2048, 2048]⟩ : Shape).Idx → EReal) (x1 : (⟨3, ![2, 2048, 32000]⟩ : Shape).Idx → BitVec 1)
    (x2 x3 : (⟨2, ![32000, 2048]⟩ : Shape).Idx → EReal) (x4 : (⟨1, ![1]⟩ : Shape).Idx → EReal)
    (b : Fin 2) (s : Fin 2048) (c : Fin 2048) : EReal :=
  (∑ v : Fin 32000, contrib x0 x1 x2 x3 b s c v) * x4 (ix1 (0 : Fin 1)) + x0 (ix3 b s c)

/-- Entry `128·j + k` of a vector of length 32000, for a block number `j < 250` and a place `k < 128` in the block. -/
def at128 (j : Fin 250) (k : Fin 128) : Fin 32000 :=
  ⟨128 * j.val + k.val, by have := j.isLt; have := k.isLt; omega⟩

/-- A sum over 32000 entries is the sum over 250 consecutive blocks of the 128 entries of each block: the pairs
    `(j, k)` enumerate the entries `128·j + k` exactly once. -/
theorem sum_blocks {M : Type*} [AddCommMonoid M] (f : Fin 32000 → M) :
    ∑ j : Fin 250, ∑ k : Fin 128, f (at128 j k) = ∑ v : Fin 32000, f v := by
  rw [← Equiv.sum_comp (finProdFinEquiv : Fin 250 × Fin 128 ≃ Fin 32000) f, Fintype.sum_prod_type]
  refine Finset.sum_congr rfl fun j _ => Finset.sum_congr rfl fun k _ => congrArg f (Fin.ext ?_)
  show 128 * j.val + k.val = k.val + 128 * j.val
  omega

end Cert.Spec

end
-- ==== Proof.RefIndex.lean ====
/-
  The reference's result read at an entry: it is the specification's `result`.

  The reference multiplies the hidden states by the first weight matrix over the whole vocabulary at once, scales
  each product by the mask's factor, multiplies by the second weight matrix (a sum over all 32000 vocabulary
  entries), scales by the strength and adds the hidden states.  Each stage is read at an index by the generated
  lemmas of its operation; the strength's reshape from one entry to a scalar is read here.
-/
import proofs.«153799_j20280835572330_2_alg».proof.Proof.Gen.ReferenceIdeal.Read
import proofs.«153799_j20280835572330_2_alg».proof.Proof.Spec
import Idealize.ShloMosaic.Lib.ValueIdx
import Idealize.ShloMosaic.Lib.Pipeline.Value
import Idealize.ShloMosaic.PureOps.Ideal.Laws

noncomputable section

namespace Cert.ReferenceIdeal.RefIndex

open Cert.ReferenceIdeal Cert.ReferenceIdeal.Gen Cert.ReferenceIdeal.Read Idealize.ShloMosaic Idealize.ShloMosaic.ValueIdx

/-! ## The operand indices of the two products, by coordinates -/

theorem lidx_second (b : Fin 2) (s c : Fin 2048) (v : Fin 32000) : lidx_main_v3 (ix3 b s c) v = ix3 b s v :=
  funext fun a => Fin.ext (by match a with | ⟨0, _⟩ => rfl | ⟨1, _⟩ => rfl | ⟨2, _⟩ => rfl)

theorem ridx_second (b : Fin 2) (s c : Fin 2048) (v : Fin 32000) : ridx_main_v3 (ix3 b s c) v = ix2 v c :=
  funext fun a => Fin.ext (by match a with | ⟨0, _⟩ => rfl | ⟨1, _⟩ => rfl)

theorem lidx_first (b : Fin 2) (s : Fin 2048) (v : Fin 32000) (h : Fin 2048) : lidx_main_v0 (ix3 b s v) h = ix3 b s h :=
  funext fun a => Fin.ext (by match a with | ⟨0, _⟩ => rfl | ⟨1, _⟩ => rfl | ⟨2, _⟩ => rfl)

theorem ridx_first (b : Fin 2) (s : Fin 2048) (v : Fin 32000) (h : Fin 2048) : ridx_main_v0 (ix3 b s v) h = ix2 v h :=
  funext fun a => Fin.ext (by match a with | ⟨0, _⟩ => rfl | ⟨1, _⟩ => rfl)

/-! ## The strength as a scalar -/

/-- The one-entry strength reshaped to a scalar is its entry. -/
theorem strength_apply (x4 : (⟨S1, .f32⟩ : BufTy).Contents (Elt Ideal)) (j : S_.Idx) :
    val_main_v4 (F := Ideal) x4 j = x4 (ix1 (0 : Fin 1)) := by
  unfold val_main_v4
  refine shapeCast_apply x4 _ j (ix1 (0 : Fin 1)) ?_
  have hj : (S_.rowMajor j).val = 0 := Shape.rowMajorPi_zero _ _
  rw [Shape.rowMajor_val_one, hj]
  rfl

/-! ## The result at an entry -/

/-- Entry `(b, s, c)` of the reference's result is the specification's. -/
theorem result_apply (x0 : (⟨S2x2048x2048, .f32⟩ : BufTy).Contents (Elt Ideal)) (x1 : (⟨S2x2048x32000, .i1⟩ : BufTy).Contents (Elt Ideal))
    (x2 x3 : (⟨S32000x2048, .f32⟩ : BufTy).Contents (Elt Ideal)) (x4 : (⟨S1, .f32⟩ : BufTy).Contents (Elt Ideal))
    (b : Fin 2) (s c : Fin 2048) :
    val_main_v7 (F := Ideal) x0 x1 x2 x3 x4 (ix3 b s c) = Cert.Spec.result x0 x1 x2 x3 x4 b s c := by
  rw [val_main_v7_apply, val_main_v6_apply, val_main_v3_apply, val_main_v5_apply, strength_apply]
  unfold Cert.Spec.result
  refine congrArg₂ (· + ·) (congrArg₂ (· * ·) (Finset.sum_congr rfl fun v _ => ?_) rfl) rfl
  rw [lidx_second, ridx_second, val_main_v2_apply, val_main_v0_apply, val_main_v1_apply, val_main_call0_v0_apply,
    val_main_call0_v1_apply, val_main_cst_apply, val_main_cst_0_apply]
  unfold Cert.Spec.contrib Cert.Spec.scale
  refine congrArg₂ (· * ·) (congrArg₂ (· * ·) (Finset.sum_congr rfl fun h _ => ?_) rfl) rfl
  rw [lidx_first, ridx_first]

end Cert.ReferenceIdeal.RefIndex

end
-- ==== Proof.Payload.lean ====
/-
  The values the kernel's body stores, read at an entry of the output block, on the extended reals.

  One grid point holds a block of 512 rows of the hidden states (`x0 : [1, 512, 2048]`), the 128 rows of the two
  weight matrices that belong to the point's vocabulary block (`x2, x3 : [128, 2048]`), the mask words of those rows
  and columns (`x1 : [1, 512, 128]`) and the accumulator `acc : [1, 512, 2048]`.  The accumulating store writes, at
  entry `(0, r, c)`,

      acc[0,r,c] + Σ_{k < 128} ((Σ_{h < 2048} x0[0,r,h] · x2[k,h]) · scale(x1[0,r,k])) · x3[k,c]

  (two matrix products into zero accumulators, a transposition, and the roundings to bf16, which are the identity
  on the extended reals); the first point of a run starts from the zero block; the last point of a run then
  multiplies by the strength and adds the hidden states' block.
-/
import proofs.«153799_j20280835572330_2_alg».proof.Proof.Gen.KernelIdeal.Skeleton
import proofs.«153799_j20280835572330_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The mask word's factor -/

/-- The factor the body selects from a 32-bit mask word: it tests the word against zero twice. -/
def scale32 (w : BitVec 32) : EReal :=
  Scalar.select (IntOp.cmpi .ne ((IntOp.cmpi .ne w 0#32).setWidth 32) 0#32)
    (Ideal.ofBits .f32 0x3F800000#32) (Ideal.ofBits .f32 0x38D1B717#32)

/-- A mask bit widened to a word and tested against zero twice is the bit. -/
theorem test_widened (b : BitVec 1) :
    IntOp.cmpi .ne ((IntOp.cmpi .ne (b.setWidth 32) 0#32).setWidth 32) 0#32 = b := by
  rcases BitVec.eq_zero_or_eq_one b with h | h <;> subst h <;> decide

/-- So on a widened mask bit the body's factor is the specification's. -/
theorem scale32_widened (b : BitVec 1) : scale32 (b.setWidth 32) = Cert.Spec.scale b := by
  unfold scale32 Cert.Spec.scale
  rw [test_widened]

/-! ## The two matrix products at an entry -/

theorem matmul1_lhs0 (j : S512x128.Idx) (q : dot_S512x2048_S2048x128_S512x128_1_0_0_1_n_n.contr.Idx) : (dot_S512x2048_S2048x128_S512x128_1_0_0_1_n_n.lhsIdx j q 0).val = (j 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem matmul1_lhs1 (j : S512x128.Idx) (q : dot_S512x2048_S2048x128_S512x128_1_0_0_1_n_n.contr.Idx) : (dot_S512x2048_S2048x128_S512x128_1_0_0_1_n_n.lhsIdx j q 1).val = (q ⟨0, by decide⟩).val :=
  dot_S512x2048_S2048x128_S512x128_1_0_0_1_n_n.lhsIdx_val_of_single rfl j q
theorem matmul1_rhs0 (j : S512x128.Idx) (q : dot_S512x2048_S2048x128_S512x128_1_0_0_1_n_n.contr.Idx) : (dot_S512x2048_S2048x128_S512x128_1_0_0_1_n_n.rhsIdx j q 0).val = (q ⟨0, by decide⟩).val :=
  dot_S512x2048_S2048x128_S512x128_1_0_0_1_n_n.rhsIdx_val_of_single rfl j q
theorem matmul1_rhs1 (j : S512x128.Idx) (q : dot_S512x2048_S2048x128_S512x128_1_0_0_1_n_n.contr.Idx) : (dot_S512x2048_S2048x128_S512x128_1_0_0_1_n_n.rhsIdx j q 1).val = (j 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The first product, `[512, 2048] × [2048, 128]` into zero: entry `(r, c)` is the sum over the 2048 shared
    coordinates. -/
theorem matmul1_apply (l : FVec Ideal S512x2048 .bf16) (w : FVec Ideal S2048x128 .bf16) (r : Fin 512) (c : Fin 128) :
    matmul dot_S512x2048_S2048x128_S512x128_1_0_0_1_n_n none l w (constant S512x128 .f32 0x00000000#32) (ix2 r c)
      = ∑ h : Fin 2048, l (ix2 r h) * w (ix2 h c) := by
  refine (Ideal.matmul_constant_zero_apply _ none l w (ix2 r c)).trans ?_
  rw [← Equiv.sum_comp (contrEquiv1 dot_S512x2048_S2048x128_S512x128_1_0_0_1_n_n 2048 rfl rfl).symm]
  refine Finset.sum_congr rfl fun h _ => ?_
  have hk := contrEquiv1_symm_val dot_S512x2048_S2048x128_S512x128_1_0_0_1_n_n 2048 rfl rfl h
  have el : dot_S512x2048_S2048x128_S512x128_1_0_0_1_n_n.lhsIdx (ix2 r c) ((contrEquiv1 dot_S512x2048_S2048x128_S512x128_1_0_0_1_n_n 2048 rfl rfl).symm h) = ix2 r h :=
    funext fun a => Fin.ext (by
      match a with
      | ⟨0, _⟩ => exact matmul1_lhs0 _ _
      | ⟨1, _⟩ => exact (matmul1_lhs1 _ _).trans hk)
  have er : dot_S512x2048_S2048x128_S512x128_1_0_0_1_n_n.rhsIdx (ix2 r c) ((contrEquiv1 dot_S512x2048_S2048x128_S512x128_1_0_0_1_n_n 2048 rfl rfl).symm h) = ix2 h c :=
    funext fun a => Fin.ext (by
      match a with
      | ⟨0, _⟩ => exact (matmul1_rhs0 _ _).trans hk
      | ⟨1, _⟩ => exact matmul1_rhs1 _ _)
  rw [el, er]

theorem matmul2_lhs0 (j : S512x2048.Idx) (q : dot_S512x128_S128x2048_S512x2048_1_0_0_1_n_n.contr.Idx) : (dot_S512x128_S128x2048_S512x2048_1_0_0_1_n_n.lhsIdx j q 0).val = (j 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem matmul2_lhs1 (j : S512x2048.Idx) (q : dot_S512x128_S128x2048_S512x2048_1_0_0_1_n_n.contr.Idx) : (dot_S512x128_S128x2048_S512x2048_1_0_0_1_n_n.lhsIdx j q 1).val = (q ⟨0, by decide⟩).val :=
  dot_S512x128_S128x2048_S512x2048_1_0_0_1_n_n.lhsIdx_val_of_single rfl j q
theorem matmul2_rhs0 (j : S512x2048.Idx) (q : dot_S512x128_S128x2048_S512x2048_1_0_0_1_n_n.contr.Idx) : (dot_S512x128_S128x2048_S512x2048_1_0_0_1_n_n.rhsIdx j q 0).val = (q ⟨0, by decide⟩).val :=
  dot_S512x128_S128x2048_S512x2048_1_0_0_1_n_n.rhsIdx_val_of_single rfl j q
theorem matmul2_rhs1 (j : S512x2048.Idx) (q : dot_S512x128_S128x2048_S512x2048_1_0_0_1_n_n.contr.Idx) : (dot_S512x128_S128x2048_S512x2048_1_0_0_1_n_n.rhsIdx j q 1).val = (j 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- The second product, `[512, 128] × [128, 2048]` into zero: entry `(r, c)` is the sum over the block's 128
    vocabulary entries. -/
theorem matmul2_apply (l : FVec Ideal S512x128 .bf16) (w : FVec Ideal S128x2048 .bf16) (r : Fin 512) (c : Fin 2048) :
    matmul dot_S512x128_S128x2048_S512x2048_1_0_0_1_n_n none l w (constant S512x2048 .f32 0x00000000#32) (ix2 r c)
      = ∑ k : Fin 128, l (ix2 r k) * w (ix2 k c) := by
  refine (Ideal.matmul_constant_zero_apply _ none l w (ix2 r c)).trans ?_
  rw [← Equiv.sum_comp (contrEquiv1 dot_S512x128_S128x2048_S512x2048_1_0_0_1_n_n 128 rfl rfl).symm]
  refine Finset.sum_congr rfl fun k _ => ?_
  have hk := contrEquiv1_symm_val dot_S512x128_S128x2048_S512x2048_1_0_0_1_n_n 128 rfl rfl k
  have el : dot_S512x128_S128x2048_S512x2048_1_0_0_1_n_n.lhsIdx (ix2 r c) ((contrEquiv1 dot_S512x128_S128x2048_S512x2048_1_0_0_1_n_n 128 rfl rfl).symm k) = ix2 r k :=
    funext fun a => Fin.ext (by
      match a with
      | ⟨0, _⟩ => exact matmul2_lhs0 _ _
      | ⟨1, _⟩ => exact (matmul2_lhs1 _ _).trans hk)
  have er : dot_S512x128_S128x2048_S512x2048_1_0_0_1_n_n.rhsIdx (ix2 r c) ((contrEquiv1 dot_S512x128_S128x2048_S512x2048_1_0_0_1_n_n 128 rfl rfl).symm k) = ix2 k c :=
    funext fun a => Fin.ext (by
      match a with
      | ⟨0, _⟩ => exact (matmul2_rhs0 _ _).trans hk
      | ⟨1, _⟩ => exact matmul2_rhs1 _ _)
  rw [el, er]

/-! ## The stored values at an entry -/

/-- What the block's vocabulary entry `k` contributes to the accumulator's entry `(0, r, c)`. -/
def blockContrib (x0 : Vec Ideal S1x512x2048 .f32) (x2 : Vec Ideal S128x2048 .f32) (x1 : Vec Ideal S1x512x128 .i32)
    (x3 : Vec Ideal S128x2048 .f32) (r : Fin 512) (c : Fin 2048) (k : Fin 128) : EReal :=
  ((∑ h : Fin 2048, x0 (ix3 (0 : Fin 1) r h) * x2 (ix2 k h)) * scale32 (x1 (ix3 (0 : Fin 1) r k))) * x3 (ix2 k c)

/-- The accumulating store: the accumulator's entry plus the block's 128 contributions. -/
theorem pay4_apply (x0 : Vec Ideal S1x512x2048 .f32) (x2 : Vec Ideal S128x2048 .f32) (x1 : Vec Ideal S1x512x128 .i32)
    (x3 : Vec Ideal S128x2048 .f32) (acc : Vec Ideal S1x512x2048 .f32) (u : Fin 1) (r : Fin 512) (c : Fin 2048) :
    k0_pay4 (F := Ideal) x0 x2 x1 x3 acc (ix3 u r c)
      = acc (ix3 (0 : Fin 1) r c) + ∑ k : Fin 128, blockContrib x0 x2 x1 x3 r c k := by
  unfold k0_pay4 k0_pay3
  try dsimp only
  refine (shapeCast_ab_1ab_apply _ _ u r c).trans ?_
  refine congrArg₂ (· + ·) (shapeCast_1ab_ab_apply acc _ r c) ?_
  refine (matmul2_apply _ _ r c).trans (Finset.sum_congr rfl fun k _ => ?_)
  unfold blockContrib
  simp only [truncf_apply, mulf_apply]
  refine congrArg₂ (· * ·) (congrArg₂ (· * ·) ?_ ?_) rfl
  · refine (matmul1_apply _ _ r k).trans (Finset.sum_congr rfl fun h _ => ?_)
    rw [truncf_apply, shapeCast_1ab_ab_apply, transpose_ix2_apply, truncf_apply]
  · show Scalar.select (IntOp.cmpi .ne ((IntOp.cmpi .ne
        (shapeCast S512x128 x1 shapeCasts_S1x512x128_S512x128 (ix2 r k)) 0#32).setWidth 32) 0#32) _ _ = _
    rw [shapeCast_1ab_ab_apply x1 _ r k]
    rfl

/-- The reset's block is zero everywhere. -/
theorem pay2_apply (y : S1x512x2048.Idx) : k0_pay2 (F := Ideal) y = 0 := by
  unfold k0_pay2
  try dsimp only
  unfold shapeCast
  exact Ideal.ofBits_zero_f32

/-- The last point's store: the accumulated entry times the strength, plus the hidden states' entry. -/
theorem pay1_apply (x0 : Vec Ideal S1x512x2048 .f32) (acc : Vec Ideal S1x512x2048 .f32) (x4 : Vec Ideal S1 .f32)
    (u : Fin 1) (r : Fin 512) (c : Fin 2048) :
    k0_pay1 (F := Ideal) (k0_pay3 x0) acc x4 (ix3 u r c)
      = acc (ix3 (0 : Fin 1) r c) * x4 (ix1 (0 : Fin 1)) + x0 (ix3 (0 : Fin 1) r c) := by
  unfold k0_pay1 k0_pay3
  try dsimp only
  refine (shapeCast_ab_1ab_apply _ _ u r c).trans ?_
  refine congrArg₂ (· + ·) (congrArg₂ (· * ·) (shapeCast_1ab_ab_apply acc _ r c) ?_) (shapeCast_1ab_ab_apply x0 _ r c)
  show extractAt ![0] x4 inpos_S1_p0 = x4 (ix1 (0 : Fin 1))
  unfold extractAt
  exact congrArg x4 (funext fun a => Fin.ext (by match a with | ⟨0, _⟩ => rfl))

end Cert.KernelIdeal.Body

end
-- ==== Proof.Blocks.lean ====
/-
  The input blocks of a grid point, read at an entry, as entries of the whole argument arrays.

  The grid has 2 · 4 · 250 = 2000 points; point `t` is batch `t / 1000`, row block `t / 250 % 4` (512 rows each) and
  vocabulary block `t % 250` (128 entries each).  The hidden states' block is rows `512·(t / 250 % 4) …` of batch
  `t / 1000`; the two weight blocks are rows `128·(t % 250) …` of the weight matrices; the mask's block is those
  rows and those vocabulary columns of the mask, each bit widened to a word before the kernel is launched; the
  strength's block is the whole one-entry array.
-/
import proofs.«153799_j20280835572330_2_alg».proof.Proof.Gen.KernelIdeal.Frame.Runs
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The index maps over the grid -/

/-- Hidden states: block `(t / 1000, t / 250 % 4, 0)`. -/
theorem idx_hidden : ∀ t : Fin cfg0.N, win0_0.index t (0 : Fin 3) = t.val / 1000
    ∧ win0_0.index t (1 : Fin 3) = t.val / 250 % 4 ∧ win0_0.index t (2 : Fin 3) = 0 :=
  (by decide +kernel : ∀ t : Fin grid0.N, _)

/-- Mask: block `(t / 1000, t / 250 % 4, t % 250)`. -/
theorem idx_mask : ∀ t : Fin cfg0.N, win0_1.index t (0 : Fin 3) = t.val / 1000
    ∧ win0_1.index t (1 : Fin 3) = t.val / 250 % 4 ∧ win0_1.index t (2 : Fin 3) = t.val % 250 :=
  (by decide +kernel : ∀ t : Fin grid0.N, _)

/-- First weight matrix: block `(t % 250, 0)`. -/
theorem idx_w1 : ∀ t : Fin cfg0.N, win0_2.index t (0 : Fin 2) = t.val % 250 ∧ win0_2.index t (1 : Fin 2) = 0 :=
  (by decide +kernel : ∀ t : Fin grid0.N, _)

/-- Second weight matrix: block `(t % 250, 0)`. -/
theorem idx_w2 : ∀ t : Fin cfg0.N, win0_3.index t (0 : Fin 2) = t.val % 250 ∧ win0_3.index t (1 : Fin 2) = 0 :=
  (by decide +kernel : ∀ t : Fin grid0.N, _)

/-- Strength: block `(0)`. -/
theorem idx_strength : ∀ t : Fin cfg0.N, win0_4.index t (0 : Fin 1) = 0 :=
  (by decide +kernel : ∀ t : Fin grid0.N, _)

/-! ## The mask as the kernel finds it -/

/-- Before the kernel is launched each mask bit is widened to a 32-bit word. -/
theorem mask_words (c : Dev nD) :
    (V m c main_v0 : S2x2048x32000.Idx → BitVec 32) = extui 32 (m ((c : Thread nD τ).loc main_arg1)) := by
  dsimp only [V, hostOps0]
  after_results <;> rfl

/-! ## The blocks at an entry -/

/-- The hidden states' block at point `t`, entry `(0, r, h)`: row `512·(t / 250 % 4) + r` of batch `t / 1000`. -/
theorem hidden_apply (c : Dev nD) (t : Fin cfg0.N) (u : Fin 1) (r : Fin 512) (h : Fin 2048) (b : Fin 2) (s : Fin 2048)
    (hb : b.val = t.val / 1000) (hs : s.val = 512 * (t.val / 250 % 4) + r.val) :
    iblk m c 0 t (ix3 u r h) = m ((c : Thread nD τ).loc main_arg0) (ix3 b s h) := by
  obtain ⟨e0, e1, e2⟩ := idx_hidden t
  unfold iblk
  rw [View.read_apply]
  show V m c main_arg0 _ = _
  rw [V_main_arg0]
  refine congrArg _ (funext fun a => Fin.ext ?_)
  match a with
  | ⟨0, _⟩ => show win0_0.index t (0 : Fin 3) * 1 + 1 * u.val = b.val; omega
  | ⟨1, _⟩ => show win0_0.index t (1 : Fin 3) * 512 + 1 * r.val = s.val; omega
  | ⟨2, _⟩ => show win0_0.index t (2 : Fin 3) * 2048 + 1 * h.val = h.val; omega

/-- The mask's block at point `t`, entry `(0, r, k)`: the widened bit of row `512·(t / 250 % 4) + r`, vocabulary entry
    `128·(t % 250) + k`, batch `t / 1000`. -/
theorem mask_apply (c : Dev nD) (t : Fin cfg0.N) (u : Fin 1) (r : Fin 512) (k : Fin 128) (b : Fin 2) (s : Fin 2048)
    (v : Fin 32000) (hb : b.val = t.val / 1000) (hs : s.val = 512 * (t.val / 250 % 4) + r.val)
    (hv : v.val = 128 * (t.val % 250) + k.val) :
    iblk m c 1 t (ix3 u r k) = (m ((c : Thread nD τ).loc main_arg1) (ix3 b s v)).setWidth 32 := by
  obtain ⟨e0, e1, e2⟩ := idx_mask t
  unfold iblk
  rw [View.read_apply]
  show V m c main_v0 _ = _
  rw [mask_words]
  refine congrArg (fun w => (m ((c : Thread nD τ).loc main_arg1) w).setWidth 32) (funext fun a => Fin.ext ?_)
  match a with
  | ⟨0, _⟩ => show win0_1.index t (0 : Fin 3) * 1 + 1 * u.val = b.val; omega
  | ⟨1, _⟩ => show win0_1.index t (1 : Fin 3) * 512 + 1 * r.val = s.val; omega
  | ⟨2, _⟩ => show win0_1.index t (2 : Fin 3) * 128 + 1 * k.val = v.val; omega

/-- The first weight block at point `t`, entry `(k, h)`: row `128·(t % 250) + k` of the matrix. -/
theorem w1_apply (c : Dev nD) (t : Fin cfg0.N) (k : Fin 128) (h : Fin 2048) (v : Fin 32000)
    (hv : v.val = 128 * (t.val % 250) + k.val) :
    iblk m c 2 t (ix2 k h) = m ((c : Thread nD τ).loc main_arg2) (ix2 v h) := by
  obtain ⟨e0, e1⟩ := idx_w1 t
  unfold iblk
  rw [View.read_apply]
  show V m c main_arg2 _ = _
  rw [V_main_arg2]
  refine congrArg _ (funext fun a => Fin.ext ?_)
  match a with
  | ⟨0, _⟩ => show win0_2.index t (0 : Fin 2) * 128 + 1 * k.val = v.val; omega
  | ⟨1, _⟩ => show win0_2.index t (1 : Fin 2) * 2048 + 1 * h.val = h.val; omega

/-- The second weight block at point `t`, entry `(k, c)`: row `128·(t % 250) + k` of the matrix. -/
theorem w2_apply (c : Dev nD) (t : Fin cfg0.N) (k : Fin 128) (h : Fin 2048) (v : Fin 32000)
    (hv : v.val = 128 * (t.val % 250) + k.val) :
    iblk m c 3 t (ix2 k h) = m ((c : Thread nD τ).loc main_arg3) (ix2 v h) := by
  obtain ⟨e0, e1⟩ := idx_w2 t
  unfold iblk
  rw [View.read_apply]
  show V m c main_arg3 _ = _
  rw [V_main_arg3]
  refine congrArg _ (funext fun a => Fin.ext ?_)
  match a with
  | ⟨0, _⟩ => show win0_3.index t (0 : Fin 2) * 128 + 1 * k.val = v.val; omega
  | ⟨1, _⟩ => show win0_3.index t (1 : Fin 2) * 2048 + 1 * h.val = h.val; omega

/-- The strength's block at any point is the one-entry array. -/
theorem strength_apply (c : Dev nD) (t : Fin cfg0.N) (u : Fin 1) :
    iblk m c 4 t (ix1 u) = m ((c : Thread nD τ).loc main_arg4) (ix1 (0 : Fin 1)) := by
  have e0 := idx_strength t
  unfold iblk
  rw [View.read_apply]
  show V m c main_arg4 _ = _
  rw [V_main_arg4]
  refine congrArg _ (funext fun a => Fin.ext ?_)
  match a with
  | ⟨0, _⟩ => show win0_4.index t (0 : Fin 1) * 1 + 1 * u.val = 0; omega

end Cert.KernelIdeal.Blocks

end
-- ==== Proof.Fold.lean ====
/-
  The kernel's result array read at an entry: it is the specification's `result`.

  The generated value leg says what the result array holds at entry `(b, s, c)`: the fold, over the 250 grid points
  of the run that owns row `s` of batch `b` (run number `4·b + s / 512`), of "reset" at the run's first point and
  "step" at each later one, read at row `s % 512` of the block.  Here the fold is opened:

    * the reset leaves `0 + (the first point's 128 contributions)`, every step but the last adds its point's 128
      contributions to what the point before left, so after 249 points the block holds `0` plus the sum of those
      points' contributions (the library's lemma on folds that add);
    * the last step adds its own 128 contributions, multiplies by the strength and adds the hidden states;
    * point `250·q + j` of run `q` contributes the vocabulary entries `128·j … 128·j + 127` (its blocks are those
      rows of the weight matrices and those columns of the mask), so the 250 points together contribute every
      vocabulary entry exactly once (`Spec.sum_blocks`).
-/
import proofs.«153799_j20280835572330_2_alg».proof.Proof.Gen.KernelIdeal.Value
import proofs.«153799_j20280835572330_2_alg».proof.Proof.Payload
import proofs.«153799_j20280835572330_2_alg».proof.Proof.Blocks
import proofs.«153799_j20280835572330_2_alg».proof.Proof.Spec

noncomputable section

namespace Cert.KernelIdeal.Fold

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

theorem N_eq : cfg0.N = 2000 := N_0

/-! ## One point's contributions -/

/-- The 128 contributions of point `n` to entry `y` of its row block's accumulator (zero past the grid, where it
    is never used). -/
def addend (c : Dev nD) (n : ℕ) (y : S1x512x2048.Idx) : EReal :=
  if h : n < cfg0.N then
    ∑ k : Fin 128, Body.blockContrib (iblk m c 0 ⟨n, h⟩) (iblk m c 2 ⟨n, h⟩) (iblk m c 1 ⟨n, h⟩) (iblk m c 3 ⟨n, h⟩) (y 1) (y 2) k
  else 0

/-- The accumulating store at point `n`, over what the point before left: the entry plus the point's contributions. -/
theorem accum_apply (c : Dev nD) (n : ℕ) (h : n < cfg0.N) (acc : Vec Ideal S1x512x2048 .f32) (u : Fin 1) (r : Fin 512)
    (col : Fin 2048) :
    k0_pay4 (F := Ideal) (iblk m c 0 ⟨n, h⟩) (iblk m c 2 ⟨n, h⟩) (iblk m c 1 ⟨n, h⟩) (iblk m c 3 ⟨n, h⟩) acc (ix3 u r col)
      = acc (ix3 u r col) + addend m c n (ix3 u r col) := by
  obtain rfl : u = 0 := Subsingleton.elim _ _
  refine (Body.pay4_apply (iblk m c 0 ⟨n, h⟩) (iblk m c 2 ⟨n, h⟩) (iblk m c 1 ⟨n, h⟩) (iblk m c 3 ⟨n, h⟩) acc 0 r col).trans ?_
  unfold addend
  rw [dif_pos h]

/-- Every entry of a block is `(0, r, c)` for a row `r` and a column `c`. -/
theorem entry_cases (y : S1x512x2048.Idx) : ∃ (u : Fin 1) (r : Fin 512) (col : Fin 2048), y = ix3 u r col :=
  ⟨y 0, y 1, y 2, eq_ix3 y⟩

/-- The reset at a run's first point leaves zero plus that point's contributions. -/
theorem reset_eq (c : Dev nD) (n : ℕ) (h : n < cfg0.N) (y : S1x512x2048.Idx) :
    Value.reset5 m c n h y = (fun _ => (0 : EReal)) y + addend m c n y := by
  obtain ⟨u, r, col, rfl⟩ := entry_cases y
  unfold Value.reset5
  refine (accum_apply m c n h (k0_pay2 (F := Ideal)) u r col).trans ?_
  exact congrArg (· + addend m c n (ix3 u r col)) (Body.pay2_apply _)

/-- A step that is neither a run's first nor its last point adds the point's contributions. -/
theorem step_mid (c : Dev nD) (n : ℕ) (h : n < cfg0.N) (acc : Vec Ideal S1x512x2048 .f32) (h0 : ¬n % 250 = 0)
    (h1 : ¬n % 250 = 249) (y : S1x512x2048.Idx) :
    Value.step5 m c n h acc y = acc y + addend m c n y := by
  obtain ⟨u, r, col, rfl⟩ := entry_cases y
  unfold Value.step5
  rw [if_pos ⟨h0, h1⟩]
  exact accum_apply m c n h acc u r col

/-- A run's last step adds the point's contributions, multiplies by the strength and adds the hidden states. -/
theorem step_last (c : Dev nD) (n : ℕ) (h : n < cfg0.N) (acc : Vec Ideal S1x512x2048 .f32) (h0 : ¬n % 250 = 0)
    (h1 : n % 250 = 249) (r : Fin 512) (col : Fin 2048) :
    Value.step5 m c n h acc (ix3 (0 : Fin 1) r col)
      = (acc (ix3 (0 : Fin 1) r col) + addend m c n (ix3 (0 : Fin 1) r col)) * iblk m c 4 ⟨n, h⟩ (ix1 (0 : Fin 1))
        + iblk m c 0 ⟨n, h⟩ (ix3 (0 : Fin 1) r col) := by
  unfold Value.step5
  rw [if_neg (fun hh => hh.2 h1), if_pos ⟨h0, h1⟩]
  refine (Body.pay1_apply (iblk m c 0 ⟨n, h⟩)
    (k0_pay4 (F := Ideal) (iblk m c 0 ⟨n, h⟩) (iblk m c 2 ⟨n, h⟩) (iblk m c 1 ⟨n, h⟩) (iblk m c 3 ⟨n, h⟩) acc)
    (iblk m c 4 ⟨n, h⟩) 0 r col).trans ?_
  rw [accum_apply m c n h acc 0 r col]

/-! ## A whole run's fold -/

/-- After its 250 points, run `q`'s block holds at `(0, r, c)`: the sum of all the points' contributions, times the
    strength, plus the hidden states' entry. -/
theorem fold_apply (c : Dev nD) (q : ℕ) (hq : 250 * q + 249 < cfg0.N) (r : Fin 512) (col : Fin 2048) :
    Pipeline.accAt (Value.reset5 m c) (Value.step5 m c) (250 * q) 249 hq (ix3 (0 : Fin 1) r col)
      = (∑ j ∈ Finset.range 250, addend m c (250 * q + j) (ix3 (0 : Fin 1) r col))
          * iblk m c 4 ⟨250 * q + 249, hq⟩ (ix1 (0 : Fin 1))
        + iblk m c 0 ⟨250 * q + 249, hq⟩ (ix3 (0 : Fin 1) r col) := by
  have hN := N_eq
  refine (congrFun (Pipeline.accAt_succ (Value.reset5 m c) (Value.step5 m c) (250 * q) 248 hq) (ix3 (0 : Fin 1) r col)).trans ?_
  refine (step_last m c (250 * q + (248 + 1)) hq _ (by omega) (by omega) r col).trans ?_
  refine congrArg₂ (· + ·) (congrArg₂ (· * ·) ?_ rfl) rfl
  rw [Pipeline.accAt_add_apply (Value.reset5 m c) (Value.step5 m c) (fun _ => (0 : EReal)) (addend m c) (250 * q) 248
    (fun h y => reset_eq m c (250 * q) h y)
    (fun n h acc y hlt hle => step_mid m c n h acc (by omega) (by omega) y) 248 le_rfl _ (ix3 (0 : Fin 1) r col)]
  rw [zero_add, Finset.sum_range_succ _ 249]

/-! ## A point's contributions, as vocabulary entries of the whole arrays -/

/-- Point `250·(4·b + s / 512) + j` contributes, to row `s % 512` of its block, the vocabulary entries
    `128·j … 128·j + 127` of the specification's sum for row `s` of batch `b`. -/
theorem addend_eq (c : Dev nD) (b : Fin 2) (s col : Fin 2048) (j : Fin 250) (r : Fin 512) (n : ℕ)
    (hn : n = 250 * (4 * b.val + s.val / 512) + j.val) (hr : r.val = s.val % 512) :
    addend m c n (ix3 (0 : Fin 1) r col)
      = ∑ k : Fin 128, Cert.Spec.contrib (m ((c : Thread nD τ).loc main_arg0)) (m ((c : Thread nD τ).loc main_arg1))
          (m ((c : Thread nD τ).loc main_arg2)) (m ((c : Thread nD τ).loc main_arg3)) b s col (Cert.Spec.at128 j k) := by
  have hb := b.isLt
  have hs := s.isLt
  have hj := j.isLt
  have hlt : n < cfg0.N := by rw [N_eq]; omega
  have e1 : b.val = n / 1000 := by omega
  have e2 : s.val = 512 * (n / 250 % 4) + r.val := by omega
  have e3 : n % 250 = j.val := by omega
  unfold addend
  rw [dif_pos hlt]
  refine Finset.sum_congr rfl fun k _ => ?_
  have e4 : (Cert.Spec.at128 j k).val = 128 * (n % 250) + k.val := by
    show 128 * j.val + k.val = _
    rw [e3]
  show Body.blockContrib (iblk m c 0 ⟨n, hlt⟩) (iblk m c 2 ⟨n, hlt⟩) (iblk m c 1 ⟨n, hlt⟩) (iblk m c 3 ⟨n, hlt⟩) r col k = _
  unfold Body.blockContrib Cert.Spec.contrib
  rw [Blocks.w2_apply m c ⟨n, hlt⟩ k col (Cert.Spec.at128 j k) e4,
    Blocks.mask_apply m c ⟨n, hlt⟩ 0 r k b s (Cert.Spec.at128 j k) e1 e2 e4, Body.scale32_widened]
  refine congrArg₂ (· * ·) (congrArg₂ (· * ·) (Finset.sum_congr rfl fun h _ => ?_) rfl) rfl
  rw [Blocks.hidden_apply m c ⟨n, hlt⟩ 0 r h b s e1 e2, Blocks.w1_apply m c ⟨n, hlt⟩ k h (Cert.Spec.at128 j k) e4]

/-! ## The result array at an entry -/

/-- Entry `(b, s, c)` of the kernel's result array is the specification's. -/
theorem result_apply (c : Dev nD) (b : Fin 2) (s col : Fin 2048) :
    Value.G5 m c (ix3 b s col)
      = Cert.Spec.result (m ((c : Thread nD τ).loc main_arg0)) (m ((c : Thread nD τ).loc main_arg1))
          (m ((c : Thread nD τ).loc main_arg2)) (m ((c : Thread nD τ).loc main_arg3)) (m ((c : Thread nD τ).loc main_arg4)) b s col := by
  have hb := b.isLt
  have hs := s.isLt
  have hc := col.isLt
  have hrun : Value.run5Of (ix3 b s col) = 4 * b.val + s.val / 512 := by
    show 4 * (b.val / 1 - 0) + 1 * (s.val / 512 - 0) + 1 * (col.val / 2048 - 0) = _
    omega
  have hq : 250 * (4 * b.val + s.val / 512) + 249 < cfg0.N := by rw [N_eq]; omega
  have hloc : Value.loc5Of (ix3 b s col) = ix3 (0 : Fin 1) (⟨s.val % 512, Nat.mod_lt _ (by decide)⟩ : Fin 512) col :=
    funext fun a => Fin.ext (by
      match a with
      | ⟨0, _⟩ => show b.val % 1 = 0; omega
      | ⟨1, _⟩ => rfl
      | ⟨2, _⟩ => show col.val % 2048 = col.val; omega)
  have same : ∀ (p : ℕ) (h : p + 249 < cfg0.N) (p' : ℕ) (h' : p' + 249 < cfg0.N), p = p' →
      Pipeline.accAt (Value.reset5 m c) (Value.step5 m c) p 249 h = Pipeline.accAt (Value.reset5 m c) (Value.step5 m c) p' 249 h' := by
    intro p h p' h' e; subst e; rfl
  unfold Value.G5
  rw [dif_pos (by rw [hrun]; exact hq), hloc,
    same _ _ (250 * (4 * b.val + s.val / 512)) hq (by rw [hrun]),
    fold_apply m c (4 * b.val + s.val / 512) hq ⟨s.val % 512, Nat.mod_lt _ (by decide)⟩ col]
  unfold Cert.Spec.result
  refine congrArg₂ (· + ·) (congrArg₂ (· * ·) ?_ (Blocks.strength_apply m c ⟨_, hq⟩ 0))
    (Blocks.hidden_apply m c ⟨_, hq⟩ 0 ⟨s.val % 512, Nat.mod_lt _ (by decide)⟩ col b s
      (by show b.val = (250 * (4 * b.val + s.val / 512) + 249) / 1000; omega)
      (by show s.val = 512 * ((250 * (4 * b.val + s.val / 512) + 249) / 250 % 4) + s.val % 512; omega))
  rw [Finset.sum_range, ← Cert.Spec.sum_blocks]
  exact Finset.sum_congr rfl fun j _ =>
    addend_eq m c b s col j ⟨s.val % 512, Nat.mod_lt _ (by decide)⟩ _ rfl rfl

end Cert.KernelIdeal.Fold

end
-- ==== Proof.lean ====
/-
  The certificate's claim: the kernel, its idealization and the reference all run without a fault and leave their
  arguments unchanged, and on the extended reals the idealized kernel and the idealized reference end with the same
  result.

  Both compute, at entry `(b, s, c)` of the result,

      (Σ_{v < 32000} ((Σ_{h < 2048} x[b,s,h] · W1[v,h]) · scale(mask[b,s,v])) · W2[v,c]) · strength[0] + x[b,s,c]

  (`Cert.Spec.result`).  The reference forms the sum over the vocabulary at once (`RefIndex.result_apply`: its
  operations read at an index).  The kernel walks a grid of 2 · 4 · 250 points; for each batch and each block of 512
  rows it adds, one block of 128 vocabulary entries after the other, that block's share of the sum into an accumulator
  that starts at zero, and at the 250th block multiplies by the strength and adds the hidden states
  (`Fold.result_apply`: the accumulator's fold over a run of 250 points, opened).  The two groupings of the sum
  agree because addition of extended reals is commutative and associative (`Spec.sum_blocks`); the roundings to bf16
  in front of the kernel's two matrix products are the identity on the extended reals; the two constants the mask
  selects between are the same words in both programs.  Finiteness of the inputs is not used.

  The kernel's idealization rewrote nothing, so that conjunct is `True`.  The three frame conjuncts are the
  programs' runs with the results forgotten.
-/
import proofs.«153799_j20280835572330_2_alg».proof.Defs
import proofs.«153799_j20280835572330_2_alg».proof.Proof.Gen.Kernel.Frame
import proofs.«153799_j20280835572330_2_alg».proof.Proof.Gen.KernelIdeal.Value
import proofs.«153799_j20280835572330_2_alg».proof.Proof.Gen.Pre_finite_inputs
import proofs.«153799_j20280835572330_2_alg».proof.Proof.Gen.ReferenceIdeal.Run
import proofs.«153799_j20280835572330_2_alg».proof.Proof.Gen.ReferenceIdeal.Read
import proofs.«153799_j20280835572330_2_alg».proof.Proof.RefIndex
import proofs.«153799_j20280835572330_2_alg».proof.Proof.Fold
import Idealize.ShloMosaic.Adequacy
import Idealize.ShloMosaic.Init

noncomputable section

namespace Cert.Proof

open Idealize.ShloMosaic Idealize.SL.Sem Idealize.ShloMosaic.ValueIdx

/-- The idealized kernel runs and keeps its arguments: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and keeps its arguments: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the arguments, the kernel's result array and the reference's result are the same
    function: entry by entry, both are the specification's `result` of the arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v7_eq]
  funext i
  obtain ⟨b, s, col, rfl⟩ : ∃ (b : Fin 2) (s : Fin 2048) (col : Fin 2048), i = ix3 b s col := ⟨i 0, i 1, i 2, eq_ix3 i⟩
  rw [Cert.ReferenceIdeal.RefIndex.result_apply, (hagree c).1, (hagree c).2.1, (hagree c).2.2.1, (hagree c).2.2.2.1,
    (hagree c).2.2.2.2]
  exact (Cert.KernelIdeal.Fold.result_apply m c b s col).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
